-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S64x162x1024 : Shape := ⟨3, ![64, 162, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S64x162x1024 : S_.BroadcastsInDim S64x162x1024 (![] : Fin 0 → Fin S64x162x1024.rank)
  reducesTo_S64x162x1024_S_d0_1_2 : S64x162x1024.ReducesTo [0, 1, 2] S_

variable [Facts]

def fn {F : FTy → Type} [FloatOps F] (main_arg0 : FVec F S2048x1024 .f32) (main_arg1 : FVec F S64x162x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S64x162x1024 .f32 := Host.absf main_arg1
  let main_cst_0 : FVec F S_ .f32 := constant S_ .f32 0x7F800000#32
  let main_v5 : FVec F S64x162x1024 .f32 := broadcastInDim S64x162x1024 ![] bcast_S_S64x162x1024 main_cst_0
  let main_v6 : IVec S64x162x1024 1 := cmpf .olt main_v4 main_v5
  let main_c_1 : IVec S_ 1 := constantI S_ 1 1#1
  let main_v7 : IVec S_ 1 := (fun x v => Host.reduce IntOp.andi x v reducesTo_S64x162x1024_S_d0_1_2 h_S_) main_v6 main_c_1
  let main_v8 : IVec S_ 1 := andi main_v3 main_v7
  main_v8
-- ==== Kernel.lean ====
abbrev S2048x1024 : Shape := ⟨2, ![2048, 1024]⟩
abbrev S64x162x1024 : Shape := ⟨3, ![64, 162, 1024]⟩
abbrev S10368x1024 : Shape := ⟨2, ![10368, 1024]⟩
abbrev S_ : Shape := ⟨0, ![]⟩
abbrev S2048 : Shape := ⟨1, ![2048]⟩
abbrev S2048x1 : Shape := ⟨2, ![2048, 1]⟩
abbrev S10368 : Shape := ⟨1, ![10368]⟩
abbrev S10368x1 : Shape := ⟨2, ![10368, 1]⟩
abbrev S2048x10368 : Shape := ⟨2, ![2048, 10368]⟩
abbrev S384x1024 : Shape := ⟨2, ![384, 1024]⟩
abbrev S2048x384 : Shape := ⟨2, ![2048, 384]⟩
abbrev S2048x64x162 : Shape := ⟨3, ![2048, 64, 162]⟩

abbrev nBuf : Space → Nat
  | .hbm => 27
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S64x162x1024, .f32⟩
  | .hbm, ⟨2, _⟩ => ⟨S10368x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S2048x1024, .f32⟩
  | .hbm, ⟨12, _⟩ => ⟨S2048x1024, .f32⟩
  | .hbm, ⟨13, _⟩ => ⟨S2048x1024, .bf16⟩
  | .hbm, ⟨14, _⟩ => ⟨S10368x1024, .f32⟩
  | .hbm, ⟨15, _⟩ => ⟨S_, .f32⟩
  | .hbm, ⟨16, _⟩ => ⟨S10368, .f32⟩
  | .hbm, ⟨17, _⟩ => ⟨S10368x1, .f32⟩
  | .hbm, ⟨18, _⟩ => ⟨S10368x1, .f32⟩
  | .hbm, ⟨19, _⟩ => ⟨S_, .f32⟩
  | .hbm, ⟨20, _⟩ => ⟨S10368x1, .f32⟩
  | .hbm, ⟨21, _⟩ => ⟨S10368x1, .f32⟩
  | .hbm, ⟨22, _⟩ => ⟨S10368x1024, .f32⟩
  | .hbm, ⟨23, _⟩ => ⟨S10368x1024, .f32⟩
  | .hbm, ⟨24, _⟩ => ⟨S10368x1024, .bf16⟩
  | .hbm, ⟨25, _⟩ => ⟨S2048x10368, .f32⟩
  | .hbm, ⟨26, _⟩ => ⟨S2048x64x162, .f32⟩
  | .local _ .vmem, ⟨0, _⟩ => ⟨S2048x1024, .bf16⟩
  | .local _ .vmem, ⟨1, _⟩ => ⟨S384x1024, .bf16⟩
  | .local _ .vmem, ⟨2, _⟩ => ⟨S384x1024, .bf16⟩
  | .local _ .vmem, ⟨3, _⟩ => ⟨S2048x384, .f32⟩
  | .local _ .vmem, ⟨4, _⟩ => ⟨S2048x384, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![27], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x162x1024_S10368x1024 : S64x162x1024.ShapeCasts S10368x1024
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  bitsLt_bf16_f32 : FTy.bits .bf16 < FTy.bits .f32
  reducesTo_S10368x1024_S10368_d1 : S10368x1024.ReducesTo [1] S10368
  bcast_S10368_S10368x1_0 : S10368.BroadcastsInDim S10368x1 (![0] : Fin 1 → Fin S10368x1.rank)
  bcast_S_S10368x1 : S_.BroadcastsInDim S10368x1 (![] : Fin 0 → Fin S10368x1.rank)
  bcast_S10368x1_S10368x1024_0_1 : S10368x1.BroadcastsInDim S10368x1024 (![0, 1] : Fin 2 → Fin S10368x1024.rank)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S384x1024_S384x1024_0_0 : ∀ a, (![0, 0] : Fin 2 → Nat) a + S384x1024.size a ≤ S384x1024.size a
  h_S384x1024 : 0 < S384x1024.numel
  shapeCasts_S384x1024_S384x1024 : S384x1024.ShapeCasts S384x1024
  inb_S2048x384_S2048x384_0_0 : ∀ a, (![0, 0] : Fin 2 → Nat) a + S2048x384.size a ≤ S2048x384.size a
  h_S2048x384 : 0 < S2048x384.numel
  shapeCasts_S2048x10368_S2048x64x162 : S2048x10368.ShapeCasts S2048x64x162
  dot_S2048x1024_S384x1024_S2048x384_1_1_0_0_n_n_wf : DotDims.WF S2048x1024 S384x1024 S2048x384 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .bf16 = 32 ∨ (Rect.block (s := S2048x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S384x1024.size a ≤ S10368x1024.size a
  hwx0_1 : ∀ i : grid0.Coords, EltTy.bits .bf16 = 32 ∨ (Rect.block (s := S10368x1024) S384x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x384.size a ≤ S2048x10368.size a
  hwx0_2 : ∀ i : grid0.Coords, EltTy.bits .f32 = 32 ∨ (Rect.block (s := S2048x10368) S2048x384.size (cc0_transform_2 i) (hinb0_2 i)).WholeWords (EltTy.packing .f32)

variable [Facts₀]

def dot_S2048x1024_S384x1024_S2048x384_1_1_0_0_n_n : DotDims S2048x1024 S384x1024 S2048x384 where
  lhsContracting := [1]
  rhsContracting := [1]
  lhsNonContracting := [0]
  rhsNonContracting := [0]
  lhsBatch := []
  rhsBatch := []
  wf := dot_S2048x1024_S384x1024_S2048x384_1_1_0_0_n_n_wf

abbrev win0_0 : Pipeline.Window sig grid0 :=
  Pipeline.Window.ofSpec (Memref.whole main_v6) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v12) S384x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2048x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S64x162x1024 : Shape := ⟨3, ![64, 162, 1024]⟩
abbrev S_ : Shape := ⟨0, ![]⟩
abbrev S2048 : Shape := ⟨1, ![2048]⟩
abbrev S2048x1 : Shape := ⟨2, ![2048, 1]⟩
abbrev S64x162 : Shape := ⟨2, ![64, 162]⟩
abbrev S64x162x1 : Shape := ⟨3, ![64, 162, 1]⟩
abbrev S2048x64x162 : Shape := ⟨3, ![2048, 64, 162]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S64x162x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S2048x1024, .f32⟩
  | .hbm, ⟨11, _⟩ => ⟨S2048x1024, .f32⟩
  | .hbm, ⟨12, _⟩ => ⟨S64x162x1024, .f32⟩
  | .hbm, ⟨13, _⟩ => ⟨S_, .f32⟩
  | .hbm, ⟨14, _⟩ => ⟨S64x162, .f32⟩
  | .hbm, ⟨15, _⟩ => ⟨S64x162x1, .f32⟩
  | .hbm, ⟨16, _⟩ => ⟨S64x162x1, .f32⟩
  | .hbm, ⟨17, _⟩ => ⟨S_, .f32⟩
  | .hbm, ⟨18, _⟩ => ⟨S64x162x1, .f32⟩
  | .hbm, ⟨19, _⟩ => ⟨S64x162x1, .f32⟩
  | .hbm, ⟨20, _⟩ => ⟨S64x162x1024, .f32⟩
  | .hbm, ⟨21, _⟩ => ⟨S64x162x1024, .f32⟩
  | .hbm, ⟨22, _⟩ => ⟨S2048x64x162, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2048x64x162, .f32⟩
  | .hbm, ⟨27, _⟩ => ⟨S2048x64x162, .f32⟩
  | .hbm, ⟨28, _⟩ => ⟨S_, .f32⟩
  | .hbm, ⟨29, _⟩ => ⟨S2048x64x162, .f32⟩
  | .hbm, ⟨30, _⟩ => ⟨S2048x64x162, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_cst_2 : Ref sig .tc := ⟨.hbm, 24, rfl⟩
abbrev main_call2_v0 : Ref sig .tc := ⟨.hbm, 25, rfl⟩
abbrev main_call2_v1 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_v11 : Ref sig .tc := ⟨.hbm, 30, rfl⟩

abbrev nD : Nat := 1
abbrev τ : Topo := Topo.v7x

variable {F : FTy → Type} [FloatOps F]

class Facts₀ : Prop where
  reducesTo_S2048x1024_S2048_d1 : S2048x1024.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  reducesTo_S64x162x1024_S64x162_d2 : S64x162x1024.ReducesTo [2] S64x162
  bcast_S64x162_S64x162x1_0_1 : S64x162.BroadcastsInDim S64x162x1 (![0, 1] : Fin 2 → Fin S64x162x1.rank)
  bcast_S_S64x162x1 : S_.BroadcastsInDim S64x162x1 (![] : Fin 0 → Fin S64x162x1.rank)
  bcast_S64x162x1_S64x162x1024_0_1_2 : S64x162x1.BroadcastsInDim S64x162x1024 (![0, 1, 2] : Fin 3 → Fin S64x162x1024.rank)
  bcast_S_S2048x64x162 : S_.BroadcastsInDim S2048x64x162 (![] : Fin 0 → Fin S2048x64x162.rank)
  dot_S2048x1024_S64x162x1024_S2048x64x162_1_2_0_01_n_n_wf : DotDims.WF S2048x1024 S64x162x1024 S2048x64x162 [1] [2] [0] [0, 1] [] []

variable [Facts₀]

def dot_S2048x1024_S64x162x1024_S2048x64x162_1_2_0_01_n_n : DotDims S2048x1024 S64x162x1024 S2048x64x162 where
  lhsContracting := [1]
  rhsContracting := [2]
  lhsNonContracting := [0]
  rhsNonContracting := [0, 1]
  lhsBatch := []
  rhsBatch := []
  wf := dot_S2048x1024_S64x162x1024_S2048x64x162_1_2_0_01_n_n_wf

class Facts : Prop extends Facts₀ where

variable [Facts]
-- ==== Proof.Spec.lean ====
/-
  The function both programs compute, stated once and free of either program.

  For a query array x : [2048, 1024] and a reference array y : [64, 162, 1024] the result at (q, o, t) is the cosine of
  row q of x and row (o, t) of y, clipped to [0, 1]:

      clip₀¹ ( Σ_k  x[q,k] / max(‖x[q,·]‖, ε)  ·  y[o,t,k] / max(‖y[o,t,·]‖, ε) ),      ‖v‖ = √(0 + Σ_k v_k · v_k),

  over the extended reals, with ε, 0 and 1 the values of the three f32 words both programs carry. Nothing here is
  evaluated: the same words stand on both sides of every equation that follows, and the quotient, the square root, max and
  min are the extended reals' own.
-/
import Idealize.ShloMosaic.PureOps.Ideal
import Idealize.ShloMosaic.Lib.ValueIdx

noncomputable section

namespace Cert.Cosine

open Idealize.ShloMosaic Idealize.ShloMosaic.ValueIdx

/-- The clamp under a length: the value of the f32 word nearest 1e-12. -/
def eps : EReal := Ideal.ofBits .f32 0x2B8CBCCC#32

/-- The lower and the upper clip, as the values of their f32 words. -/
def lo : EReal := Ideal.ofBits .f32 0x00000000#32
def hi : EReal := Ideal.ofBits .f32 0x3F800000#32

/-- The Euclidean length of a vector of 1024 extended reals, clamped below by `eps`. The sum of squares starts from
    the zero word's value, as a sum started from an initial value does. -/
def len (v : Fin 1024 → EReal) : EReal :=
  max (Ideal.sqrt (lo + ∑ k : Fin 1024, v k * v k)) eps

/-- The vector divided by its clamped length. -/
def unit (v : Fin 1024 → EReal) (k : Fin 1024) : EReal := Ideal.div (v k) (len v)

/-- The clip to [lo, hi]: first from below, then from above. -/
def clip (s : EReal) : EReal := min hi (max lo s)

/-- The clipped cosine of two vectors: the inner product of the two scaled vectors, clipped. -/
def cosClip (u w : Fin 1024 → EReal) : EReal := clip (∑ k : Fin 1024, unit u k * unit w k)

/-- The result at coordinates (q, o, t). -/
def Gc (x : (⟨2, ![2048, 1024]⟩ : Shape).Idx → EReal) (y : (⟨3, ![64, 162, 1024]⟩ : Shape).Idx → EReal)
    (q : Fin 2048) (o : Fin 64) (t : Fin 162) : EReal :=
  cosClip (fun k => x (ix2 q k)) (fun k => y (ix3 o t k))

/-- The result array. -/
def G (x : (⟨2, ![2048, 1024]⟩ : Shape).Idx → EReal) (y : (⟨3, ![64, 162, 1024]⟩ : Shape).Idx → EReal) :
    (⟨3, ![2048, 64, 162]⟩ : Shape).Idx → EReal :=
  fun i => Gc x y (i 0) (i 1) (i 2)

theorem G_ix3 (x : (⟨2, ![2048, 1024]⟩ : Shape).Idx → EReal) (y : (⟨3, ![64, 162, 1024]⟩ : Shape).Idx → EReal)
    (q : Fin 2048) (o : Fin 64) (t : Fin 162) : G x y (ix3 q o t) = Gc x y q o t := rfl

/-- Row (o, t) of a [64, 162, ·] array is row 162·o + t of the same array flattened to [10368, ·]. -/
def flat (o : Fin 64) (t : Fin 162) : Fin 10368 :=
  ⟨o.val * 162 + t.val, by have := o.isLt; have := t.isLt; omega⟩

theorem flat_val (o : Fin 64) (t : Fin 162) : (flat o t).val = o.val * 162 + t.val := rfl

end Cert.Cosine

end
-- ==== Proof.RefValue.lean ====
/-
  The reference computes the specification.

  Read one operation at a time: the scaled query at (q, k) is x[q,k] over the clamped length of row q; the scaled
  reference at (o, t, k) is y[o,t,k] over the clamped length of row (o, t); the contraction of the last axes at
  (q, o, t) is the sum over k of their products; and the clip is max with the lower word, then min with the upper.
-/
import proofs.«159340_j34454227648919_2_alg».proof.Proof.Spec
import proofs.«159340_j34454227648919_2_alg».proof.Proof.Gen.ReferenceIdeal.Read

noncomputable section

namespace Cert.Cosine.Ref

open Idealize.ShloMosaic Idealize.ShloMosaic.ValueIdx
open Cert.ReferenceIdeal Cert.ReferenceIdeal.Read Cert.Cosine

/-- The scaled query: entry (q, k) is entry k of row q divided by the row's clamped length. -/
theorem unitX (x : (⟨S2048x1024, .f32⟩ : BufTy).Contents (Elt Ideal)) (q : Fin 2048) (k : Fin 1024) :
    val_main_v4 (F := Ideal) x (ix2 q k) = unit (fun k' => x (ix2 q k')) k := by
  have e1 : ∀ k' : Fin 1024, idx_main_call0_v1 (idx_main_call0_v2 (idx_main_v3 (ix2 q k))) k' = ix2 q k' := fun k' =>
    funext fun a => Fin.ext (by match a with | ⟨0, _⟩ => rfl | ⟨1, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, e1]
  rfl

/-- The scaled reference: entry (o, t, k) is entry k of row (o, t) divided by the row's clamped length. -/
theorem unitY (y : (⟨S64x162x1024, .f32⟩ : BufTy).Contents (Elt Ideal)) (o : Fin 64) (t : Fin 162) (k : Fin 1024) :
    val_main_v9 (F := Ideal) y (ix3 o t k) = unit (fun k' => y (ix3 o t k')) k := by
  have e1 : ∀ k' : Fin 1024, idx_main_call1_v1 (idx_main_call1_v2 (idx_main_v8 (ix3 o t k))) k' = ix3 o t k' := fun k' =>
    funext fun a => Fin.ext (by match a with | ⟨0, _⟩ => rfl | ⟨1, _⟩ => rfl | ⟨2, _⟩ => rfl)
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, e1]
  rfl

/-- The reference's result array is the specification's. -/
theorem result_eq (x : (⟨S2048x1024, .f32⟩ : BufTy).Contents (Elt Ideal)) (y : (⟨S64x162x1024, .f32⟩ : BufTy).Contents (Elt Ideal)) :
    val_main_v11 (F := Ideal) x y = G x y := by
  funext i
  obtain ⟨q, o, t, rfl⟩ : ∃ (q : Fin 2048) (o : Fin 64) (t : Fin 162), i = ix3 q o t := ⟨i 0, i 1, i 2, eq_ix3 i⟩
  have el : ∀ k : Fin 1024, lidx_main_v10 (ix3 q o t) k = ix2 q k := fun k =>
    funext fun a => Fin.ext (by match a with | ⟨0, _⟩ => rfl | ⟨1, _⟩ => rfl)
  have er : ∀ k : Fin 1024, ridx_main_v10 (ix3 q o t) k = ix3 o t k := fun k =>
    funext fun a => Fin.ext (by match a with | ⟨0, _⟩ => rfl | ⟨1, _⟩ => rfl | ⟨2, _⟩ => rfl)
  rw [val_main_v11_apply, val_main_call2_v4_apply, val_main_call2_v3_apply, val_main_cst_2_apply,
    val_main_call2_v2_apply, val_main_call2_v1_apply, val_main_call2_v0_apply, val_main_cst_1_apply,
    val_main_v10_apply, G_ix3]
  simp only [el, er, unitX, unitY]
  rfl

end Cert.Cosine.Ref

end
-- ==== Proof.Block.lean ====
/-
  What the kernel body stores, entry by entry.

  At a grid point the body holds the whole scaled query Q : [2048, 1024] and 384 rows B : [384, 1024] of the scaled,
  flattened reference, and stores  clip₀¹ (Q · Bᵀ) : [2048, 384].  Entry (p, j) of the product contracts the last axis of
  both operands, so it is  Σ_k Q[p,k] · B[j,k]  — a matrix product accumulated from the zero splat is just that sum over
  the extended reals, whatever the order the hardware takes it in.
-/
import proofs.«159340_j34454227648919_2_alg».proof.Proof.Spec
import proofs.«159340_j34454227648919_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Cosine.Block

open Idealize.ShloMosaic Idealize.ShloMosaic.ValueIdx
open Cert.KernelIdeal Cert.KernelIdeal.Gen Cert.Cosine

/-- The product's dimension record: contract axis 1 of the left operand with axis 1 of the right one. -/
abbrev D := dot_S2048x1024_S384x1024_S2048x384_1_1_0_0_n_n

/-! The operand indices of the product at output index `i` and contraction index `κ`, coordinate by coordinate:
    the left one is (i₀, κ), the right one (i₁, κ). -/

theorem lhs0 (i : S2048x384.Idx) (κ : D.contr.Idx) : (D.lhsIdx i κ 0).val = (i 0).val := by
  unfold DotDims.lhsIdx
  rw [dif_neg (show ¬(0 : Fin S2048x1024.rank) ∈ D.lhsBatch by decide),
    dif_pos (show (0 : Fin S2048x1024.rank) ∈ D.lhsNonContracting by decide)]
  rfl

theorem lhs1 (i : S2048x384.Idx) (κ : D.contr.Idx) : (D.lhsIdx i κ 1).val = (κ ⟨0, by decide⟩).val :=
  D.lhsIdx_val_of_single rfl i κ

theorem rhs0 (i : S2048x384.Idx) (κ : D.contr.Idx) : (D.rhsIdx i κ 0).val = (i 1).val := by
  unfold DotDims.rhsIdx
  rw [dif_neg (show ¬(0 : Fin S384x1024.rank) ∈ D.rhsBatch by decide),
    dif_pos (show (0 : Fin S384x1024.rank) ∈ D.rhsNonContracting by decide)]
  rfl

theorem rhs1 (i : S2048x384.Idx) (κ : D.contr.Idx) : (D.rhsIdx i κ 1).val = (κ ⟨0, by decide⟩).val :=
  D.rhsIdx_val_of_single rfl i κ

/-- Entry (p, j) of the product from the zero splat: the sum over k of Q[p,k] · B[j,k]. -/
theorem matmul_at (x0 : FVec Ideal S2048x1024 .bf16) (x1 : FVec Ideal S384x1024 .bf16) (p : Fin 2048) (j : Fin 384) :
    matmul D none x0 x1 (constant S2048x384 .f32 0x00000000#32) (ix2 p j)
      = ∑ k : Fin 1024, x0 (ix2 p k) * x1 (ix2 j k) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx (ix2 p j) ((contrEquiv1 D 1024 rfl rfl).symm k) = ix2 p k := funext fun a => Fin.ext (by
    match a with
    | ⟨0, _⟩ => exact lhs0 _ _
    | ⟨1, _⟩ => exact (lhs1 _ _).trans hk)
  have er : D.rhsIdx (ix2 p j) ((contrEquiv1 D 1024 rfl rfl).symm k) = ix2 j k := funext fun a => Fin.ext (by
    match a with
    | ⟨0, _⟩ => exact rhs0 _ _
    | ⟨1, _⟩ => exact (rhs1 _ _).trans hk)
  rw [el, er]

/-- The stored value at (p, j): the clipped sum. The two shape casts of the body are casts to the same shape. -/
theorem pay_at (x0 : Vec Ideal S2048x1024 .bf16) (x1 : Vec Ideal S384x1024 .bf16) (p : Fin 2048) (j : Fin 384) :
    k0_pay1 (F := Ideal) x0 x1 (ix2 p j) = clip (∑ k : Fin 1024, x0 (ix2 p k) * x1 (ix2 j k)) := by
  unfold k0_pay1
  simp only [shapeCast_self]
  show min hi (max lo (matmul (F := Ideal) D none x0 x1 (constant (F := Ideal) S2048x384 .f32 0x00000000#32) (ix2 p j))) = _
  rw [matmul_at]
  rfl

end Cert.Cosine.Block

end
-- ==== Proof.Rows.lean ====
/-
  The host operations before the kernel, read entry by entry.

  The program scales the rows of the query [2048, 1024] and of the reference flattened to [10368, 1024] to unit length
  (the length clamped below), then hands both to the kernel in a narrower float format — which changes nothing over the
  extended reals. Entry (n, k) of a scaled array is entry k of row n divided by the row's clamped length, and row
  162·o + t of the flattened reference is row (o, t) of the reference.
-/
import proofs.«159340_j34454227648919_2_alg».proof.Proof.Spec
import proofs.«159340_j34454227648919_2_alg».proof.Proof.Gen.KernelIdeal
import Idealize.ShloMosaic.Lib.Pipeline.Value
import Idealize.ShloMosaic.Lib.ValueIdx
import Idealize.ShloMosaic.PureOps.Ideal.Laws

noncomputable section

namespace Cert.Cosine.Rows

open Idealize.ShloMosaic Idealize.ShloMosaic.ValueIdx
open Cert.KernelIdeal Cert.KernelIdeal.Gen Cert.Cosine

/-- The host's quotient and square root act entry by entry. -/
theorem hdivf_at {s : Shape} {φ : FTy} (a b : FVec Ideal s φ) (i : s.Idx) : Host.divf a b i = Ideal.div (a i) (b i) := rfl
theorem hsqrt_at {s : Shape} {φ : FTy} (a : FVec Ideal s φ) (i : s.Idx) : Host.sqrt a i = Ideal.sqrt (a i) := rfl

/-! ## Rows of a [2048, 1024] array scaled to unit length (the query) -/

/-- The host operations before the kernel, as one function: square, sum each row from the zero word, keep the row axis,
    take the root, clamp below by the epsilon word, spread along the row, divide, and change the float format. -/
def unitRows2048 (v : FVec Ideal S2048x1024 .f32) : FVec Ideal S2048x1024 .bf16 :=
  truncf .bf16 (Host.divf (F := Ideal) v (broadcastInDim S2048x1024 ![0, 1] bcast_S2048x1_S2048x1024_0_1
    (maximumf (F := Ideal) (Host.sqrt (F := Ideal) (broadcastInDim S2048x1 ![0] bcast_S2048_S2048x1_0
      (Host.reduceAdd (F := Ideal) (mulf (F := Ideal) v v) (constant (F := Ideal) S_ .f32 0x00000000#32) reducesTo_S2048x1024_S2048_d1 h_S_)))
      (broadcastInDim S2048x1 ![] bcast_S_S2048x1 (constant (F := Ideal) S_ .f32 0x2B8CBCCC#32))))) bitsLt_bf16_f32

/-- A column [2048, 1] spread along the rows reads, at (n, k), the column at (n, 0). -/
theorem spread2048 (z : S2048x1.Idx → EReal) (n : Fin 2048) (k : Fin 1024) :
    broadcastInDim S2048x1024 ![0, 1] bcast_S2048x1_S2048x1024_0_1 z (ix2 n k) = z (ix2 n (0 : Fin 1)) :=
  broadcastInDim_apply _ bcast_S2048x1_S2048x1024_0_1 z (ix2 n k) (ix2 n (0 : Fin 1)) (fun a => match a with
    | ⟨0, _⟩ => by show n.val = if (2048 : Nat) = 1 then 0 else n.val; rw [if_neg (by decide)]
    | ⟨1, _⟩ => by show 0 = if (1 : Nat) = 1 then 0 else k.val; rw [if_pos rfl])

/-- A vector [2048] given a trailing unit axis reads, at (n, 0), the vector at n. -/
theorem keep2048 (w : S2048.Idx → EReal) (n : Fin 2048) :
    broadcastInDim S2048x1 ![0] bcast_S2048_S2048x1_0 w (ix2 n (0 : Fin 1)) = w (ix1 n) :=
  broadcastInDim_apply _ bcast_S2048_S2048x1_0 w (ix2 n (0 : Fin 1)) (ix1 n) (fun a => match a with
    | ⟨0, _⟩ => by show n.val = if (2048 : Nat) = 1 then 0 else n.val; rw [if_neg (by decide)])

/-- A scalar spread to [2048, 1] reads the scalar. -/
theorem scalar2048 (s : S_.Idx → EReal) (n : Fin 2048) :
    broadcastInDim S2048x1 ![] bcast_S_S2048x1 s (ix2 n (0 : Fin 1)) = s ix0 :=
  broadcastInDim_apply _ bcast_S_S2048x1 s (ix2 n (0 : Fin 1)) ix0 (fun a => a.elim0)

/-- The sum over the row axis, at row n: the initial value plus the sum of the row's entries. -/
theorem rowSum2048 (u : FVec Ideal S2048x1024 .f32) (init : FVec Ideal S_ .f32) (n : Fin 2048) :
    Host.reduceAdd (F := Ideal) u init reducesTo_S2048x1024_S2048_d1 h_S_ (ix1 n)
      = init (Shape.Idx.first h_S_) + ∑ k : Fin 1024, u (ix2 n k) := by
  simp only [Host.reduceAdd, Ideal.hostReduceAdd_def]
  rw [Ideal.hostReduceAdd_single reducesTo_S2048x1024_S2048_d1 (by decide)]
  refine congrArg (_ + ·) (Finset.sum_congr rfl fun k _ => ?_)
  exact congrArg u (funext fun a => Fin.ext (by match a with | ⟨0, _⟩ => rfl | ⟨1, _⟩ => rfl))

/-- Entry (n, k) of the scaled array: entry k of row n over the row's clamped length. -/
theorem unitRows2048_at (v : FVec Ideal S2048x1024 .f32) (n : Fin 2048) (k : Fin 1024) :
    unitRows2048 v (ix2 n k) = unit (fun k' => v (ix2 n k')) k := by
  unfold unitRows2048
  rw [truncf_apply, hdivf_at, spread2048, maximumf_apply, hsqrt_at, keep2048, scalar2048, rowSum2048]
  rfl

/-! ## Rows of a [10368, 1024] array scaled to unit length (the flattened reference) -/

/-- The host operations before the kernel, as one function: square, sum each row from the zero word, keep the row axis,
    take the root, clamp below by the epsilon word, spread along the row, divide, and change the float format. -/
def unitRows10368 (v : FVec Ideal S10368x1024 .f32) : FVec Ideal S10368x1024 .bf16 :=
  truncf .bf16 (Host.divf (F := Ideal) v (broadcastInDim S10368x1024 ![0, 1] bcast_S10368x1_S10368x1024_0_1
    (maximumf (F := Ideal) (Host.sqrt (F := Ideal) (broadcastInDim S10368x1 ![0] bcast_S10368_S10368x1_0
      (Host.reduceAdd (F := Ideal) (mulf (F := Ideal) v v) (constant (F := Ideal) S_ .f32 0x00000000#32) reducesTo_S10368x1024_S10368_d1 h_S_)))
      (broadcastInDim S10368x1 ![] bcast_S_S10368x1 (constant (F := Ideal) S_ .f32 0x2B8CBCCC#32))))) bitsLt_bf16_f32

/-- A column [10368, 1] spread along the rows reads, at (n, k), the column at (n, 0). -/
theorem spread10368 (z : S10368x1.Idx → EReal) (n : Fin 10368) (k : Fin 1024) :
    broadcastInDim S10368x1024 ![0, 1] bcast_S10368x1_S10368x1024_0_1 z (ix2 n k) = z (ix2 n (0 : Fin 1)) :=
  broadcastInDim_apply _ bcast_S10368x1_S10368x1024_0_1 z (ix2 n k) (ix2 n (0 : Fin 1)) (fun a => match a with
    | ⟨0, _⟩ => by show n.val = if (10368 : Nat) = 1 then 0 else n.val; rw [if_neg (by decide)]
    | ⟨1, _⟩ => by show 0 = if (1 : Nat) = 1 then 0 else k.val; rw [if_pos rfl])

/-- A vector [10368] given a trailing unit axis reads, at (n, 0), the vector at n. -/
theorem keep10368 (w : S10368.Idx → EReal) (n : Fin 10368) :
    broadcastInDim S10368x1 ![0] bcast_S10368_S10368x1_0 w (ix2 n (0 : Fin 1)) = w (ix1 n) :=
  broadcastInDim_apply _ bcast_S10368_S10368x1_0 w (ix2 n (0 : Fin 1)) (ix1 n) (fun a => match a with
    | ⟨0, _⟩ => by show n.val = if (10368 : Nat) = 1 then 0 else n.val; rw [if_neg (by decide)])

/-- A scalar spread to [10368, 1] reads the scalar. -/
theorem scalar10368 (s : S_.Idx → EReal) (n : Fin 10368) :
    broadcastInDim S10368x1 ![] bcast_S_S10368x1 s (ix2 n (0 : Fin 1)) = s ix0 :=
  broadcastInDim_apply _ bcast_S_S10368x1 s (ix2 n (0 : Fin 1)) ix0 (fun a => a.elim0)

/-- The sum over the row axis, at row n: the initial value plus the sum of the row's entries. -/
theorem rowSum10368 (u : FVec Ideal S10368x1024 .f32) (init : FVec Ideal S_ .f32) (n : Fin 10368) :
    Host.reduceAdd (F := Ideal) u init reducesTo_S10368x1024_S10368_d1 h_S_ (ix1 n)
      = init (Shape.Idx.first h_S_) + ∑ k : Fin 1024, u (ix2 n k) := by
  simp only [Host.reduceAdd, Ideal.hostReduceAdd_def]
  rw [Ideal.hostReduceAdd_single reducesTo_S10368x1024_S10368_d1 (by decide)]
  refine congrArg (_ + ·) (Finset.sum_congr rfl fun k _ => ?_)
  exact congrArg u (funext fun a => Fin.ext (by match a with | ⟨0, _⟩ => rfl | ⟨1, _⟩ => rfl))

/-- Entry (n, k) of the scaled array: entry k of row n over the row's clamped length. -/
theorem unitRows10368_at (v : FVec Ideal S10368x1024 .f32) (n : Fin 10368) (k : Fin 1024) :
    unitRows10368 v (ix2 n k) = unit (fun k' => v (ix2 n k')) k := by
  unfold unitRows10368
  rw [truncf_apply, hdivf_at, spread10368, maximumf_apply, hsqrt_at, keep10368, scalar10368, rowSum10368]
  rfl

/-! ## The flattening -/

/-- The reference [64, 162, 1024] flattened to [10368, 1024], rows in row-major order. -/
def flatten (y : FVec Ideal S64x162x1024 .f32) : FVec Ideal S10368x1024 .f32 :=
  shapeCast S10368x1024 y shapeCasts_S64x162x1024_S10368x1024

/-- Row 162·o + t of the flattened array is row (o, t): the two entries have one row-major position. -/
theorem flatten_at (y : FVec Ideal S64x162x1024 .f32) (o : Fin 64) (t : Fin 162) (k : Fin 1024) :
    flatten y (ix2 (flat o t) k) = y (ix3 o t k) := by
  unfold flatten
  refine shapeCast_apply y shapeCasts_S64x162x1024_S10368x1024 (ix2 (flat o t) k) (ix3 o t k) ?_
  rw [Shape.rowMajor_val_three, Shape.rowMajor_val_two]
  rfl

/-- So the scaled flattened reference at (162·o + t, k) is entry k of row (o, t) over that row's clamped length. -/
theorem unitRowsFlat_at (y : FVec Ideal S64x162x1024 .f32) (o : Fin 64) (t : Fin 162) (k : Fin 1024) :
    unitRows10368 (flatten y) (ix2 (flat o t) k) = unit (fun k' => y (ix3 o t k')) k := by
  rw [unitRows10368_at]
  simp only [flatten_at]

end Cert.Cosine.Rows

end
-- ==== Proof.KernelValue.lean ====
/-
  The kernel program's result array.

  The region's two operands are the scaled query Q = unitRows2048 x and the scaled flattened reference
  R = unitRows10368 (flatten y). Grid point t holds all of Q and rows 384·t … 384·t + 383 of R, and writes columns
  384·t … 384·t + 383 of the [2048, 10368] output: entry (p, n) of that output is clip (Σ_k Q[p,k] · R[n,k]) — a block of
  ONE function of (p, n), whichever point writes it. The 27 blocks tile the output, so after the run the output is that
  function; the last host operation reshapes it to [2048, 64, 162], which reads column 162·o + t at (·, o, t); and the
  scaled rows are the specification's unit vectors. So the program's result is the specification's array.
-/
import proofs.«159340_j34454227648919_2_alg».proof.Proof.Spec
import proofs.«159340_j34454227648919_2_alg».proof.Proof.Block
import proofs.«159340_j34454227648919_2_alg».proof.Proof.Rows
import proofs.«159340_j34454227648919_2_alg».proof.Proof.Gen.KernelIdeal.Frame
import Idealize.ShloMosaic.Lib.StableHlo.Run
import Idealize.ShloMosaic.Lib.Pipeline.Value
import Idealize.ShloMosaic.Lib.ValueIdx

noncomputable section

namespace Cert.Cosine.Kernel

open Idealize.ShloMosaic Idealize.ShloMosaic.TcCoe Idealize.ShloMosaic.ValueIdx Idealize.SL.Sem Idealize.ShloMosaic.StableHlo
open Cert.KernelIdeal Cert.KernelIdeal.Gen Cert.Cosine Cert.Cosine.Rows

variable (m : (ℓ : Loc nD τ sig) → Buf (Elt Ideal) ℓ) (ρ : Dev nD → PrngReg)

/-! ## The operands as the region finds them -/

/-- The left operand is the query with its rows scaled. -/
theorem V_left (c : Dev nD) :
    (V m c main_v6 : S2048x1024.Idx → EReal) = unitRows2048 (m ((c : Thread nD τ).loc main_arg0)) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-- The right operand is the flattened reference with its rows scaled. -/
theorem V_right (c : Dev nD) :
    (V m c main_v12 : S10368x1024.Idx → EReal) = unitRows10368 (flatten (m ((c : Thread nD τ).loc main_arg1))) := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results
  rfl

/-! ## The output of the region as one function of its operands -/

/-- Entry (p, n): the clipped inner product of row p of `A` and row n of `B`. -/
def clipDotAt (A : S2048x1024.Idx → EReal) (B : S10368x1024.Idx → EReal) (p : Fin 2048) (n : Fin 10368) : EReal :=
  clip (∑ k : Fin 1024, A (ix2 p k) * B (ix2 n k))

def clipDot (A : S2048x1024.Idx → EReal) (B : S10368x1024.Idx → EReal) : S2048x10368.Idx → EReal :=
  fun i => clipDotAt A B (i 0) (i 1)

theorem clipDot_ix2 (A : S2048x1024.Idx → EReal) (B : S10368x1024.Idx → EReal) (p : Fin 2048) (n : Fin 10368) :
    clipDot A B (ix2 p n) = clipDotAt A B p n := rfl

theorem hz : (![0, 0] : Fin 2 → Nat) = fun _ => 0 := funext fun a => by fin_cases a <;> rfl

/-- The printed index maps over the 27 grid points: the query's window stays at block (0, 0); the reference's window is at
    row block t; the output's window at column block t. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

theorem lt27 (t : Fin cfg0.N) : t.val < 27 := lt_of_lt_of_eq t.isLt N_0

/-- Column l of point t's block is column 384·t + l of the array. -/
def col (t : Fin cfg0.N) (l : Fin 384) : Fin 10368 :=
  ⟨t.val * 384 + l.val, by have := lt27 t; have := l.isLt; omega⟩

/-- The query's block at any point is the whole left operand. -/
theorem read_left (c : Dev nD) (t : Fin cfg0.N) (p : Fin 2048) (k : Fin 1024) :
    iblk m c 0 t (ix2 p k) = V m c main_v6 (ix2 p k) := by
  show V m c main_v6 (((cfg0.win 0).blk t).view.emb (ix2 p k)) = V m c main_v6 (ix2 p k)
  obtain ⟨a0, a1, -⟩ := idx_facts t
  refine congrArg (V m c main_v6) (funext fun a => Fin.ext ?_)
  match a with
  | ⟨0, _⟩ => show win0_0.index t (0 : Fin 2) * 2048 + 1 * p.val = p.val; omega
  | ⟨1, _⟩ => show win0_0.index t (1 : Fin 2) * 1024 + 1 * k.val = k.val; omega

/-- The reference's block at point t is rows 384·t … of the right operand. -/
theorem read_right (c : Dev nD) (t : Fin cfg0.N) (l : Fin 384) (k : Fin 1024) :
    iblk m c 1 t (ix2 l k) = V m c main_v12 (ix2 (col t l) k) := by
  show V m c main_v12 (((cfg0.win 1).blk t).view.emb (ix2 l k)) = V m c main_v12 (ix2 (col t l) k)
  obtain ⟨-, -, b0, b1, -⟩ := idx_facts t
  refine congrArg (V m c main_v12) (funext fun a => Fin.ext ?_)
  match a with
  | ⟨0, _⟩ => show win0_1.index t (0 : Fin 2) * 384 + 1 * l.val = t.val * 384 + l.val; omega
  | ⟨1, _⟩ => show win0_1.index t (1 : Fin 2) * 1024 + 1 * k.val = k.val; omega

/-- Entry (p, l) of the output's block at point t sits at (p, 384·t + l) in the array. -/
theorem emb_out (t : Fin cfg0.N) (p : Fin 2048) (l : Fin 384) :
    ((cfg0.win 2).blk t).view.emb (ix2 p l) = ix2 p (col t l) := by
  obtain ⟨-, -, -, -, c0, c1⟩ := idx_facts t
  refine funext fun a => Fin.ext ?_
  match a with
  | ⟨0, _⟩ => show win0_2.index t (0 : Fin 2) * 2048 + 1 * p.val = p.val; omega
  | ⟨1, _⟩ => show win0_2.index t (1 : Fin 2) * 384 + 1 * l.val = t.val * 384 + l.val; omega

/-- What point t writes back is block t of the one function `clipDot` of the two operands. -/
theorem flushed_eq (c : Dev nD) (t : Fin cfg0.N) :
    (dats m 0 c).flushed 2 t
      = ((cfg0.win 2).blk t).view.read (Elt Ideal) (clipDot (V m c main_v6) (V m c main_v12)) := by
  show (cfg0.win 2).cut (grid0.coords t) ((dats m 0 c).after 2 t) = _
  rw [after0_2]
  unfold out0_2
  rw [View.canon_unit_zero hz]
  simp only [View.ld_unit_zero (S := S2048x1024) hz, View.ld_unit_zero (S := S384x1024) hz]
  funext j
  obtain ⟨p, l, rfl⟩ : ∃ (p : Fin 2048) (l : Fin 384), j = ix2 p l := ⟨j 0, j 1, eq_ix2 j⟩
  show k0_pay1 (F := Ideal) (iblk m c 0 t) (iblk m c 1 t) (ix2 p l)
    = clipDot (V m c main_v6) (V m c main_v12) (((cfg0.win 2).blk t).view.emb (ix2 p l))
  rw [emb_out t p l, clipDot_ix2]
  refine (Block.pay_at (iblk m c 0 t) (iblk m c 1 t) p l).trans ?_
  unfold clipDotAt
  simp only [read_left m c t, read_right m c t]

/-- An index of the output is in point t's block iff each coordinate is in the block's range on its axis. -/
theorem mem_blk (t : Fin cfg0.N) (i : S2048x10368.Idx) :
    i ∈ ((cfg0.win 2).blk t).view.set ↔ ∀ a : Fin 2, win0_2.index t a * S2048x384.size a ≤ (i a).val
      ∧ (i a).val < win0_2.index t a * S2048x384.size a + S2048x384.size a := by
  show i ∈ ((View.whole main_v13).slice (win0_2.rect t)).set ↔ _
  rw [View.set_slice_whole, Rect.mem_set_unit]
  exact Iff.rfl

/-- The 27 column blocks tile the output: column n is in the block of point n / 384. -/
theorem cover (i : S2048x10368.Idx) :
    ∃ t : Fin cfg0.N, (cfg0.win 2).flush t = true ∧ i ∈ ((cfg0.win 2).blk t).view.set := by
  have hi0 : (i 0).val < 2048 := (i 0).isLt
  have hi1 : (i 1).val < 10368 := (i 1).isLt
  obtain ⟨t, ht⟩ : ∃ t : Fin cfg0.N, t.val = (i 1).val / 384 :=
    ⟨⟨(i 1).val / 384, lt_of_lt_of_eq (by omega : (i 1).val / 384 < 27) N_0.symm⟩, rfl⟩
  obtain ⟨-, -, -, -, c0, c1⟩ := idx_facts t
  refine ⟨t, flush0_2 t, ?_⟩
  rw [mem_blk]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 384 ≤ (i 1).val ∧ (i 1).val < win0_2.index t (1 : Fin 2) * 384 + 384
    omega

/-- The output array after the run. -/
theorem final (c : Dev nD) : (dats m 0 c).arrAt 2 cfg0.N = clipDot (V m c main_v6) (V m c main_v12) :=
  (dats m 0 c).arrAt_eq_of_cover 2 _ (fun t _ => flushed_eq m c t) cover

/-! ## The reshape after the region, and the result -/

/-- The program's result is the region's output reshaped to [2048, 64, 162]. -/
theorem tail_eq (c : Dev nD) :
    (Pipeline.afterTail₀ cfgs (dats m) 0 (V0 m) [hostOps1] c main_v14 : S2048x64x162.Idx → EReal)
      = shapeCast S2048x64x162 (clipDot (V m c main_v6) (V m c main_v12)) shapeCasts_S2048x10368_S2048x64x162 := by
  have hw : (Pipeline.withArrays (cfgs 0).spec c (V0 m c) (fun w => (dats m 0 c).arrAt w (cfgs 0).N)
      (Proc.devRef .tc main_v13) : S2048x10368.Idx → EReal) = clipDot (V m c main_v6) (V m c main_v12) :=
    (Pipeline.withArrays_arr spec0 launch0.win.arr_inj c _ _ 2).trans (final m c)
  unfold Pipeline.afterTail₀
  show StableHlo.after hostOps1 _ (Proc.devRef .tc main_v14) = _
  after_results
  rw [hw]
  rfl

/-- The reshape reads column 162·o + t at (q, o, t): the two entries have one row-major position. -/
theorem reshape_at (Z : S2048x10368.Idx → EReal) (q : Fin 2048) (o : Fin 64) (t : Fin 162) :
    shapeCast S2048x64x162 Z shapeCasts_S2048x10368_S2048x64x162 (ix3 q o t) = Z (ix2 q (flat o t)) := by
  refine shapeCast_apply Z shapeCasts_S2048x10368_S2048x64x162 (ix3 q o t) (ix2 q (flat o t)) ?_
  rw [Shape.rowMajor_val_three, Shape.rowMajor_val_two]
  show q.val * 10368 + (o.val * 162 + t.val) = (q.val * 64 + o.val) * 162 + t.val
  omega

/-- The program's result array is the specification's. -/
theorem result_eq (c : Dev nD) :
    (Pipeline.afterTail₀ cfgs (dats m) 0 (V0 m) [hostOps1] c main_v14 : S2048x64x162.Idx → EReal)
      = G (m ((c : Thread nD τ).loc main_arg0)) (m ((c : Thread nD τ).loc main_arg1)) := by
  rw [tail_eq, V_left, V_right]
  funext i
  obtain ⟨q, o, t, rfl⟩ : ∃ (q : Fin 2048) (o : Fin 64) (t : Fin 162), i = ix3 q o t := ⟨i 0, i 1, i 2, eq_ix3 i⟩
  rw [reshape_at, clipDot_ix2, G_ix3]
  unfold clipDotAt
  simp only [unitRows2048_at, unitRowsFlat_at]
  rfl

/-! ## The run -/

/-- Every weakly fair execution of the program terminates with its result at the specification's array and its arguments
    unchanged. -/
theorem run : θ_run defs (onTc (τ := τ) (main (F := Ideal))) ⟨m, fun _ => 0, ρ⟩ fun r => ∀ c : Dev nD,
      r.2.mem ((c : Thread nD τ).loc main_v14) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Cosine.Kernel

end
-- ==== Proof.lean ====
/-
  The kernel program and its reference compute one array over the extended reals.

  Both take a query x : [2048, 1024] and a reference y : [64, 162, 1024] and return, at (q, o, t), the cosine of row q of x
  and row (o, t) of y clipped to [0, 1], every row first divided by its Euclidean length clamped below by one and the same
  epsilon word (Proof/Spec.lean states this function once, free of either program).

  * The reference scales the rows of x and of y, contracts the last axes in one product, and clips
    (Proof/RefValue.lean, over the generated reading of its run one operation at a time).
  * The kernel program flattens y to [10368, 1024] first, scales the rows of both arrays on the host (Proof/Rows.lean: row
    162·o + t of the flattened array is row (o, t), so scaling commutes with flattening), multiplies the scaled query with
    384 rows of the scaled reference at each of 27 grid points and clips (Proof/Block.lean: an entry of such a product from
    the zero splat is the plain sum of products), and reshapes the [2048, 10368] output back to [2048, 64, 162]
    (Proof/KernelValue.lean: the 27 column blocks tile the output and are blocks of one function of the index).

  The two sides differ only in how the same 1024 products are indexed and summed, and addition of extended reals is
  commutative and associative without exception: no finiteness of the inputs is used, and the precondition is never opened.
  The narrower float format the kernel's operands pass through is the identity over the extended reals, and the ideal pass
  rewrote nothing, so the idealization's side condition is trivial. The three frames are the generated ones (the reference's
  is its generated run with the result dropped).
-/
import proofs.«159340_j34454227648919_2_alg».proof.Defs
import proofs.«159340_j34454227648919_2_alg».proof.Proof.Gen.Kernel
import proofs.«159340_j34454227648919_2_alg».proof.Proof.Gen.Kernel.Skeleton
import proofs.«159340_j34454227648919_2_alg».proof.Proof.Gen.Kernel.Launch
import proofs.«159340_j34454227648919_2_alg».proof.Proof.Gen.Kernel.Points
import proofs.«159340_j34454227648919_2_alg».proof.Proof.Gen.Kernel.Frame
import proofs.«159340_j34454227648919_2_alg».proof.Proof.Gen.KernelIdeal
import proofs.«159340_j34454227648919_2_alg».proof.Proof.Gen.KernelIdeal.Skeleton
import proofs.«159340_j34454227648919_2_alg».proof.Proof.Gen.KernelIdeal.Launch
import proofs.«159340_j34454227648919_2_alg».proof.Proof.Gen.KernelIdeal.Points
import proofs.«159340_j34454227648919_2_alg».proof.Proof.Gen.KernelIdeal.Frame
import proofs.«159340_j34454227648919_2_alg».proof.Proof.Gen.ReferenceIdeal
import proofs.«159340_j34454227648919_2_alg».proof.Proof.Gen.ReferenceIdeal.Run
import proofs.«159340_j34454227648919_2_alg».proof.Proof.Gen.ReferenceIdeal.Read
import proofs.«159340_j34454227648919_2_alg».proof.Proof.Gen.Pre_finite_inputs
import proofs.«159340_j34454227648919_2_alg».proof.Proof.Spec
import proofs.«159340_j34454227648919_2_alg».proof.Proof.RefValue
import proofs.«159340_j34454227648919_2_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on x and y, both programs end with the specification's array of x and y. -/
theorem algebraic : Cert.algebraic_KernelIdeal_ReferenceIdeal := by
  intro m ρ m' ρ' _ hagree
  refine ⟨_, Cert.Cosine.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v11_eq, Cert.Cosine.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
